-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S10000x1024 : Shape := ⟨2, ![10000, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S10000x1024 : S_.BroadcastsInDim S10000x1024 (![] : Fin 0 → Fin S10000x1024.rank)
  reducesTo_S10000x1024_S_d0_1 : S10000x1024.ReducesTo [0, 1] S_

variable [Facts]

def fn {F : FTy → Type} [FloatOps F] (main_arg0 : FVec F S4096x1024 .f32) (main_arg1 : IVec S4096 32) (main_arg2 : FVec F S10000x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S10000x1024 .f32 := Host.absf main_arg2
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  main_v8
-- ==== Kernel.lean ====
abbrev S4096x1024 : Shape := ⟨2, ![4096, 1024]⟩
abbrev S4096 : Shape := ⟨1, ![4096]⟩
abbrev S10000x1024 : Shape := ⟨2, ![10000, 1024]⟩
abbrev S_ : Shape := ⟨0, ![]⟩
abbrev S4096x1 : Shape := ⟨2, ![4096, 1]⟩
abbrev S1x4096 : Shape := ⟨2, ![1, 4096]⟩
abbrev S256x1024 : Shape := ⟨2, ![256, 1024]⟩
abbrev S256x1 : Shape := ⟨2, ![256, 1]⟩
abbrev S256x4096 : Shape := ⟨2, ![256, 4096]⟩
abbrev S256 : Shape := ⟨1, ![256]⟩

abbrev nBuf : Space → Nat
  | .hbm => 36
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S10000x1024, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S4096x1, .i32⟩
  | .hbm, ⟨15, _⟩ => ⟨S1x4096, .i32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S256x1, .i32⟩
  | .local _ .vmem, ⟨4, _⟩ => ⟨S256x1, .i32⟩
  | .local _ .vmem, ⟨5, _⟩ => ⟨S1x4096, .i32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  shapeCasts_S4096_S4096x1 : S4096.ShapeCasts S4096x1
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  natLt_1_32 : 1 < 32
  reduces_S256x4096_S256 : S256x4096.Reduces [1] S256
  shapeCasts_S256_S256x1 : S256.ShapeCasts S256x1
  shapeCasts_S4096x1_S4096 : S4096x1.ShapeCasts S4096
  reducesTo_S4096_S_d0 : S4096.ReducesTo [0] S_
  h_S_ : 0 < S_.numel
  gather_S10000x1024_S4096x1_S4096x1024_1_0_n_n_0_1_11024_wf : GatherDims.WF S10000x1024 S4096x1 S4096x1024 [1] [0] [] [0] [] 1 ![1, 1024]
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .i32 = 32 ∨ (Rect.block (s := S4096x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .i32 = 32 ∨ (Rect.block (s := S1x4096) S1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)

variable [Facts₀]

def gather_S10000x1024_S4096x1_S4096x1024_1_0_n_n_0_1_11024 : GatherDims S10000x1024 S4096x1 S4096x1024 where
  offsetDims := [1]
  collapsedSliceDims := [0]
  operandBatchingDims := []
  startIndicesBatchingDims := []
  startIndexMap := [0]
  indexVectorDim := 1
  sliceSizes := ![1, 1024]
  wf := gather_S10000x1024_S4096x1_S4096x1024_1_0_n_n_0_1_11024_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v7) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S10000x1024 : Shape := ⟨2, ![10000, 1024]⟩
abbrev S_ : Shape := ⟨0, ![]⟩
abbrev S4096x1 : Shape := ⟨2, ![4096, 1]⟩
abbrev S4096x4096 : Shape := ⟨2, ![4096, 4096]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S10000x1024, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x1024, .f32⟩
  | .hbm, ⟨12, _⟩ => ⟨S4096x4096, .f32⟩
  | .hbm, ⟨13, _⟩ => ⟨S4096x1, .i32⟩
  | .hbm, ⟨14, _⟩ => ⟨S1x4096, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  reducesTo_S4096_S_d0 : S4096.ReducesTo [0] S_
  gather_S10000x1024_S4096x1_S4096x1024_1_0_n_n_0_1_11024_wf : GatherDims.WF S10000x1024 S4096x1 S4096x1024 [1] [0] [] [0] [] 1 ![1, 1024]
  dot_S4096x1024_S4096x1024_S4096x4096_1_1_0_0_n_n_wf : DotDims.WF S4096x1024 S4096x1024 S4096x4096 [1] [1] [0] [0] [] []

variable [Facts₀]

def gather_S10000x1024_S4096x1_S4096x1024_1_0_n_n_0_1_11024 : GatherDims S10000x1024 S4096x1 S4096x1024 where
  offsetDims := [1]
  collapsedSliceDims := [0]
  operandBatchingDims := []
  startIndicesBatchingDims := []
  startIndexMap := [0]
  indexVectorDim := 1
  sliceSizes := ![1, 1024]
  wf := gather_S10000x1024_S4096x1_S4096x1024_1_0_n_n_0_1_11024_wf
def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.LibSubDot.lean ====
/-
  The algebra of the two sides. Over the extended reals, with every operand finite, a difference of two dot products
  against the same vector is the dot product of the difference: the operands are real numbers, the coercion from the
  reals commutes with finite sums, products and differences, and in the reals multiplication distributes over
  subtraction under a finite sum.
-/
import Idealize.ShloMosaic.PureOps.Ideal
import Idealize.ShloMosaic.Lib.ValueIdx

noncomputable section

open scoped BigOperators

namespace Cert.Bridge

/-- The coercion from the reals to the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Finite operands: the difference of two dot products against w, plus β, is the dot product of the difference, plus β. -/
theorem sub_dot_gen {n : Nat} (a b w : Fin n → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β := by
  choose ar har using ha
  choose br hbr using hb
  choose wr hwr using hw
  have h1 : ∑ k, a k * w k = ((∑ k, ar k * wr k : ℝ) : EReal) := by
    rw [coe_sum]
    exact Finset.sum_congr rfl fun k _ => by rw [har, hwr, EReal.coe_mul]
  have h2 : ∑ k, b k * w k = ((∑ k, br k * wr k : ℝ) : EReal) := by
    rw [coe_sum]
    exact Finset.sum_congr rfl fun k _ => by rw [hbr, hwr, EReal.coe_mul]
  have h3 : ∑ k, (a k - b k) * w k = ((∑ k, (ar k - br k) * wr k : ℝ) : EReal) := by
    rw [coe_sum]
    exact Finset.sum_congr rfl fun k _ => by rw [har, hbr, hwr, ← EReal.coe_sub, EReal.coe_mul]
  rw [h1, h2, h3, ← EReal.coe_sub, ← Finset.sum_sub_distrib]
  refine congrArg (fun t : ℝ => (t : EReal) + β) (Finset.sum_congr rfl fun k _ => ?_)
  rw [sub_mul]

/-- The instance at the 768 feature coordinates. -/
theorem sub_dot (a b w : Fin 768 → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β :=
  sub_dot_gen a b w β ha hb hw

end Cert.Bridge

end
-- ==== Proof.LossAlgebra.lean ====
/-
  The algebra that joins the two programs, with no program in sight.

  One row of the loss has a vector `s` of similarities and a vector `p` of positive marks (each 0 or 1, one of them on
  the diagonal). One program computes

      (1 − (Σ s·p) / (Σ p)) + ((Σ s) − (Σ s·p)) / (n − Σ p),

  the other

      (Σ (1 − s)·p) / (Σ p) + (Σ s·(1 − p)) / (Σ (1 − p)).

  Over the extended reals these agree once every `s j` and `p j` is a real number and `Σ p` is not zero: the sums are
  then sums of reals; `Σ (1 − s)·p = Σ p − Σ s·p`, `Σ s·(1 − p) = Σ s − Σ s·p` and `Σ (1 − p) = n − Σ p` hold in the reals, so
  the second quotients have equal numerators and equal denominators (whatever a quotient by zero means), and for the first
  `1 − P / C = (C − P) / C` because `C ≠ 0`.

  Also here: the three float words the programs use (0, 1 and 4096) as extended reals, and the two ways a comparison of
  two integer words becomes a 0/1 number (signed conversion of the widened bit, unsigned conversion of the bit).
-/
import Idealize.ShloMosaic.PureOps.Ideal
import Idealize.ShloMosaic.PureOps.Ideal.Laws
import Idealize.ShloMosaic.Lib.ValueIdx
import proofs.«166522_j26860725469565_1_alg».proof.Proof.LibSubDot

noncomputable section

open scoped BigOperators

namespace Cert.Loss

open Idealize.ShloMosaic

/-! ## The float words -/

/-- The word of `1.0`. -/
theorem ofBits_one : Ideal.ofBits .f32 0x3F800000#32 = ((1 : ℝ) : EReal) := by
  simp [Ideal.ofBits, Ideal.ieee, -EReal.coe_mul]
  norm_num

/-- The word of `4096.0`. -/
theorem ofBits_4096 : Ideal.ofBits .f32 0x45800000#32 = ((4096 : ℝ) : EReal) := by
  simp [Ideal.ofBits, Ideal.ieee, -EReal.coe_mul]
  norm_num

/-! ## A comparison of two words as a number -/

/-- The 0/1 mark of two words: one when they are equal. -/
def mark (a b : BitVec 32) : ℝ := if a = b then 1 else 0

theorem cmpi_eq_of_eq {a b : BitVec 32} (h : a = b) : IntOp.cmpi .eq a b = 1#1 := by
  subst h; simp [IntOp.cmpi]

theorem cmpi_eq_of_ne {a b : BitVec 32} (h : ¬a = b) : IntOp.cmpi .eq a b = 0#1 := by
  unfold IntOp.cmpi
  rw [show (a == b) = false from beq_eq_false_iff_ne.mpr h]
  rfl

/-- The comparison bit, widened to a word and converted as a signed integer, is the mark. -/
theorem sitofp_mark (a b : BitVec 32) :
    (FloatOps.sitofp (F := Ideal) .f32 ((IntOp.cmpi .eq a b).setWidth 32) : EReal) = ((mark a b : ℝ) : EReal) := by
  show (((BitVec.setWidth 32 (IntOp.cmpi .eq a b)).toInt : ℝ) : EReal) = _
  unfold mark
  by_cases h : a = b
  · rw [cmpi_eq_of_eq h, if_pos h, show (BitVec.setWidth 32 (1#1)).toInt = 1 from by decide]; norm_num
  · rw [cmpi_eq_of_ne h, if_neg h, show (BitVec.setWidth 32 (0#1)).toInt = 0 from by decide]; norm_num

/-- The comparison bit converted as an unsigned integer is the mark. -/
theorem uitofp_mark (a b : BitVec 32) :
    (FloatOps.uitofp (F := Ideal) .f32 (IntOp.cmpi .eq a b) : EReal) = ((mark a b : ℝ) : EReal) := by
  show ((((IntOp.cmpi .eq a b)).toNat : ℝ) : EReal) = _
  unfold mark
  by_cases h : a = b
  · rw [cmpi_eq_of_eq h, if_pos h, show (1#1 : BitVec 1).toNat = 1 from by decide]; norm_num
  · rw [cmpi_eq_of_ne h, if_neg h, show (0#1 : BitVec 1).toNat = 0 from by decide]; norm_num

theorem mark_self (a : BitVec 32) : mark a a = 1 := if_pos rfl

theorem mark_nonneg (a b : BitVec 32) : 0 ≤ mark a b := by
  unfold mark; split <;> norm_num

/-! ## One row, both ways -/

variable {n : ℕ}

/-- The row as the first program computes it. -/
def rowK (s p : Fin n → EReal) (one N : EReal) : EReal :=
  (one - Ideal.div (∑ j, s j * p j) (∑ j, p j)) + Ideal.div ((∑ j, s j) - (∑ j, s j * p j)) (N - ∑ j, p j)

/-- The row as the second program computes it. -/
def rowR (s p : Fin n → EReal) (one zero : EReal) : EReal :=
  Ideal.div (zero + ∑ j, (one - s j) * p j) (zero + ∑ j, p j)
    + Ideal.div (zero + ∑ j, s j * (one - p j)) (zero + ∑ j, (one - p j))

/-- The two rows agree when the similarities and the marks are real numbers and the marks do not sum to zero. -/
theorem rowK_eq_rowR (sr pr : Fin n → ℝ) (hC : (∑ j, pr j) ≠ 0) :
    rowK (fun j => ((sr j : ℝ) : EReal)) (fun j => ((pr j : ℝ) : EReal)) ((1 : ℝ) : EReal) ((n : ℝ) : EReal)
      = rowR (fun j => ((sr j : ℝ) : EReal)) (fun j => ((pr j : ℝ) : EReal)) ((1 : ℝ) : EReal) 0 := by
  unfold rowK rowR
  have eP : (∑ j, ((sr j : ℝ) : EReal) * ((pr j : ℝ) : EReal)) = ((∑ j, sr j * pr j : ℝ) : EReal) := by
    rw [Cert.Bridge.coe_sum]; exact Finset.sum_congr rfl fun j _ => (EReal.coe_mul _ _).symm
  have eS : (∑ j, ((sr j : ℝ) : EReal)) = ((∑ j, sr j : ℝ) : EReal) := (Cert.Bridge.coe_sum _ _).symm
  have eC : (∑ j, ((pr j : ℝ) : EReal)) = ((∑ j, pr j : ℝ) : EReal) := (Cert.Bridge.coe_sum _ _).symm
  have eA : (∑ j, (((1 : ℝ) : EReal) - ((sr j : ℝ) : EReal)) * ((pr j : ℝ) : EReal))
      = (((∑ j, pr j) - (∑ j, sr j * pr j) : ℝ) : EReal) := by
    rw [← Finset.sum_sub_distrib, Cert.Bridge.coe_sum]
    refine Finset.sum_congr rfl fun j _ => ?_
    rw [← EReal.coe_sub, ← EReal.coe_mul]; congr 1; ring
  have eB : (∑ j, ((sr j : ℝ) : EReal) * (((1 : ℝ) : EReal) - ((pr j : ℝ) : EReal)))
      = (((∑ j, sr j) - (∑ j, sr j * pr j) : ℝ) : EReal) := by
    rw [← Finset.sum_sub_distrib, Cert.Bridge.coe_sum]
    refine Finset.sum_congr rfl fun j _ => ?_
    rw [← EReal.coe_sub, ← EReal.coe_mul]; congr 1; ring
  have eD : (∑ j : Fin n, (((1 : ℝ) : EReal) - ((pr j : ℝ) : EReal))) = ((((n : ℝ)) - (∑ j, pr j) : ℝ) : EReal) := by
    have : ((n : ℝ) - ∑ j, pr j) = ∑ j : Fin n, ((1 : ℝ) - pr j) := by
      rw [Finset.sum_sub_distrib]; simp
    rw [this, Cert.Bridge.coe_sum]
    exact Finset.sum_congr rfl fun j _ => (EReal.coe_sub _ _).symm
  rw [eP, eS, eC, eA, eB, eD, zero_add, zero_add, zero_add, zero_add, ← EReal.coe_sub, ← EReal.coe_sub]
  congr 1
  rw [Ideal.div_coe hC, Ideal.div_coe hC, ← EReal.coe_mul, ← EReal.coe_mul, ← EReal.coe_sub]
  congr 1
  field_simp

/-! ## The similarities, and the two rows of the loss -/

open Idealize.ShloMosaic.ValueIdx

/-- The similarity of row `p` of `x` and row `j` of `w`: their dot product over the 1024 features. -/
def sim (x w : (⟨2, ![4096, 1024]⟩ : Shape).Idx → EReal) (p j : Fin 4096) : EReal :=
  ∑ k : Fin 1024, x (ix2 p k) * w (ix2 j k)

/-- A dot product of real entries is a real number. -/
theorem sim_real (x w : (⟨2, ![4096, 1024]⟩ : Shape).Idx → EReal) (hx : ∀ i, ∃ r : ℝ, x i = (r : EReal))
    (hw : ∀ i, ∃ r : ℝ, w i = (r : EReal)) (p j : Fin 4096) : ∃ r : ℝ, sim x w p j = (r : EReal) := by
  choose xr hxr using hx
  choose wr hwr using hw
  refine ⟨∑ k : Fin 1024, xr (ix2 p k) * wr (ix2 j k), ?_⟩
  unfold sim
  rw [Cert.Bridge.coe_sum]
  exact Finset.sum_congr rfl fun k _ => by rw [hxr, hwr, EReal.coe_mul]

/-- The marks of row `p` against every row: equal class words. -/
def marks (t : (⟨1, ![4096]⟩ : Shape).Idx → BitVec 32) (p : Fin 4096) : Fin 4096 → EReal :=
  fun j => ((mark (t (ix1 p)) (t (ix1 j)) : ℝ) : EReal)

/-- ROW `p` OF THE LOSS, BOTH WAYS: with real entries the first program's row is the second's. The marks of row `p`
    do not sum to zero because the diagonal mark is one and none is negative. -/
theorem rows_agree (x w : (⟨2, ![4096, 1024]⟩ : Shape).Idx → EReal) (t : (⟨1, ![4096]⟩ : Shape).Idx → BitVec 32)
    (hx : ∀ i, ∃ r : ℝ, x i = (r : EReal)) (hw : ∀ i, ∃ r : ℝ, w i = (r : EReal)) (p : Fin 4096) :
    rowK (fun j => sim x w p j) (marks t p) (Ideal.ofBits .f32 0x3F800000#32) (Ideal.ofBits .f32 0x45800000#32)
      = rowR (fun j => sim x w p j) (marks t p) (Ideal.ofBits .f32 0x3F800000#32) (Ideal.ofBits .f32 0x00000000#32) := by
  choose sr hsr using sim_real x w hx hw p
  rw [ofBits_one, ofBits_4096, Ideal.ofBits_zero_f32, show (fun j => sim x w p j) = fun j => ((sr j : ℝ) : EReal) from funext hsr,
    show ((4096 : ℝ) : EReal) = (((4096 : ℕ) : ℝ) : EReal) from by norm_num]
  refine rowK_eq_rowR sr (fun j => mark (t (ix1 p)) (t (ix1 j))) ?_
  have h1 : mark (t (ix1 p)) (t (ix1 p)) ≤ ∑ j : Fin 4096, mark (t (ix1 p)) (t (ix1 j)) :=
    Finset.single_le_sum (f := fun j : Fin 4096 => mark (t (ix1 p)) (t (ix1 j))) (fun j _ => mark_nonneg _ _) (Finset.mem_univ p)
  rw [mark_self] at h1
  intro h0
  rw [h0] at h1
  norm_num at h1

end Cert.Loss

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.Payload.lean ====
/-
  What the body stores, read at an index.

  The body multiplies its 256 input rows with all 4096 gathered rows, so entry `(p, j)` of the product is the dot product
  over the 1024 features of input row `p` and gathered row `j` (the matrix unit's accumulator starts from the zero word). Its mask
  entry `(p, j)` compares class word `p` of the block's column with class word `j` of the row of all class words: the
  comparison bit, widened and converted, is the 0/1 mark. The three stores are sums along a row, kept as a column: the
  masked similarities, the similarities, and the marks.
-/
import proofs.«166522_j26860725469565_1_alg».proof.Proof.Gen.KernelIdeal.Skeleton
import proofs.«166522_j26860725469565_1_alg».proof.Proof.LossAlgebra
import proofs.«166522_j26860725469565_1_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

variable (x0 : FVec Ideal S256x1024 .bf16) (x1 : FVec Ideal S4096x1024 .bf16) (x2 : IVec S256x1 32) (x3 : IVec S1x4096 32)

/-! ## The product's operand indices, coordinate by coordinate -/

theorem lhs0 (i : S256x4096.Idx) (q : dot_S256x1024_S4096x1024_S256x4096_1_1_0_0_n_n.contr.Idx) : (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl
theorem lhs1 (i : S256x4096.Idx) (q : dot_S256x1024_S4096x1024_S256x4096_1_1_0_0_n_n.contr.Idx) : (dot_S256x1024_S4096x1024_S256x4096_1_1_0_0_n_n.lhsIdx i q 1).val = (q ⟨0, by decide⟩).val :=
  dot_S256x1024_S4096x1024_S256x4096_1_1_0_0_n_n.lhsIdx_val_of_single rfl i q
theorem rhs0 (i : S256x4096.Idx) (q : dot_S256x1024_S4096x1024_S256x4096_1_1_0_0_n_n.contr.Idx) : (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl
theorem rhs1 (i : S256x4096.Idx) (q : dot_S256x1024_S4096x1024_S256x4096_1_1_0_0_n_n.contr.Idx) : (dot_S256x1024_S4096x1024_S256x4096_1_1_0_0_n_n.rhsIdx i q 1).val = (q ⟨0, by decide⟩).val :=
  dot_S256x1024_S4096x1024_S256x4096_1_1_0_0_n_n.rhsIdx_val_of_single rfl i q

/-! ## The product and the mask -/

/-- Entry `(p, j)` of the product: input row `p` against gathered row `j`, summed over the features. -/
theorem prod_at (p : Fin 256) (j : Fin 4096) :
    (k0_pay1 (F := Ideal) x0 x1 (ix2 p j) : EReal) = ∑ k : Fin 1024, (x0 (ix2 p k) : EReal) * (x1 (ix2 j k) : EReal) := by
  unfold k0_pay1
  rw [shapeCast_self, shapeCast_self]
  simp only [matmul]
  refine (Ideal.matmul_constant_zero_apply dot_S256x1024_S4096x1024_S256x4096_1_1_0_0_n_n none x0 x1 (ix2 p j)).trans ?_
  rw [← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p j) ((contrEquiv1 dot_S256x1024_S4096x1024_S256x4096_1_1_0_0_n_n 1024 rfl rfl).symm k) = ix2 p k := funext fun a => Fin.ext (by
    match a with
    | ⟨0, _⟩ => exact lhs0 _ _
    | ⟨1, _⟩ => exact (lhs1 _ _).trans hk)
  have er : dot_S256x1024_S4096x1024_S256x4096_1_1_0_0_n_n.rhsIdx (ix2 p j) ((contrEquiv1 dot_S256x1024_S4096x1024_S256x4096_1_1_0_0_n_n 1024 rfl rfl).symm k) = ix2 j k := funext fun a => Fin.ext (by
    match a with
    | ⟨0, _⟩ => exact rhs0 _ _
    | ⟨1, _⟩ => exact (rhs1 _ _).trans hk)
  rw [el, er]

/-- Entry `(p, j)` of the mask: the mark of the block's class word `p` and class word `j`. -/
theorem mask_at (p : Fin 256) (j : Fin 4096) :
    k0_pay2 (F := Ideal) x2 x3 (ix2 p j) = ((Cert.Loss.mark (x2 (ix2 p (0 : Fin 1))) (x3 (ix2 (0 : Fin 1) j)) : ℝ) : EReal) := by
  unfold k0_pay2
  rw [shapeCast_self, shapeCast_self]
  show FloatOps.sitofp (F := Ideal) .f32 ((IntOp.cmpi .eq (broadcastTo S256x4096 x2 broadcasts_S256x1_S256x4096 (ix2 p j))
    (broadcastTo S256x4096 x3 broadcasts_S1x4096_S256x4096 (ix2 p j))).setWidth 32) = _
  rw [Cert.LibColumns.broadcastTo_a1_ab_apply x2 broadcasts_S256x1_S256x4096 p j,
    broadcastTo_1b_ab_apply x3 broadcasts_S1x4096_S256x4096 p j]
  exact Cert.Loss.sitofp_mark _ _

/-! ## The three stores -/

/-- A row sum kept as a column reads, at `(p, z)`, the sum of row `p`. -/
theorem rowsum_col_at (src : FVec Ideal S256x4096 .f32) (p : Fin 256) (z : Fin 1) :
    shapeCast S256x1 (multiReduction .add [1] S256 src 0x00000000#32 reduces_S256x4096_S256 (.inl rfl) rfl) shapeCasts_S256_S256x1 (ix2 p z)
      = ∑ j : Fin 4096, src (ix2 p j) := by
  refine (Cert.LibColumns.shapeCast_a_a1_apply _ shapeCasts_S256_S256x1 p z).trans ?_
  exact Cert.LibColumns.rowSum_apply (n := 256) (m := 4096) src 0x00000000#32 reduces_S256x4096_S256 (.inl rfl) rfl p

/-- The first store: the masked similarities of row `p`, summed. -/
theorem pos_sum_at (p : Fin 256) (z : Fin 1) :
    k0_pay3 (F := Ideal) x0 x1 x2 x3 (ix2 p z) = ∑ j : Fin 4096, (k0_pay1 (F := Ideal) x0 x1 (ix2 p j) : EReal) * (k0_pay2 (F := Ideal) x2 x3 (ix2 p j) : EReal) := by
  unfold k0_pay3
  exact rowsum_col_at (mulf (k0_pay1 (F := Ideal) x0 x1) (k0_pay2 (F := Ideal) x2 x3)) p z

/-- The second store: the similarities of row `p`, summed. -/
theorem tot_sum_at (p : Fin 256) (z : Fin 1) :
    k0_pay4 (F := Ideal) x0 x1 (ix2 p z) = ∑ j : Fin 4096, (k0_pay1 (F := Ideal) x0 x1 (ix2 p j) : EReal) := by
  unfold k0_pay4
  exact rowsum_col_at (k0_pay1 (F := Ideal) x0 x1) p z

/-- The third store: the marks of row `p`, summed. -/
theorem pos_cnt_at (p : Fin 256) (z : Fin 1) :
    k0_pay5 (F := Ideal) x2 x3 (ix2 p z) = ∑ j : Fin 4096, k0_pay2 (F := Ideal) x2 x3 (ix2 p j) := by
  unfold k0_pay5
  exact rowsum_col_at (k0_pay2 (F := Ideal) x2 x3) p z

/-! ## The three stores over the loaded blocks' entries -/

/-- The first store, over the entries: `Σⱼ (Σₖ x0 (p, k) · x1 (j, k)) · mark (x2 (p, 0)) (x3 (0, j))`. -/
theorem pos_sum_entries (p : Fin 256) (z : Fin 1) :
    k0_pay3 (F := Ideal) x0 x1 x2 x3 (ix2 p z)
      = ∑ j : Fin 4096, (∑ k : Fin 1024, (x0 (ix2 p k) : EReal) * (x1 (ix2 j k) : EReal))
          * ((Cert.Loss.mark (x2 (ix2 p (0 : Fin 1))) (x3 (ix2 (0 : Fin 1) j)) : ℝ) : EReal) :=
  (pos_sum_at x0 x1 x2 x3 p z).trans (Finset.sum_congr rfl fun j _ => by rw [prod_at, mask_at])

/-- The second store, over the entries: `Σⱼ Σₖ x0 (p, k) · x1 (j, k)`. -/
theorem tot_sum_entries (p : Fin 256) (z : Fin 1) :
    k0_pay4 (F := Ideal) x0 x1 (ix2 p z)
      = ∑ j : Fin 4096, ∑ k : Fin 1024, (x0 (ix2 p k) : EReal) * (x1 (ix2 j k) : EReal) :=
  (tot_sum_at x0 x1 p z).trans (Finset.sum_congr rfl fun j _ => by rw [prod_at])

/-- The third store, over the entries: `Σⱼ mark (x2 (p, 0)) (x3 (0, j))`. -/
theorem pos_cnt_entries (p : Fin 256) (z : Fin 1) :
    k0_pay5 (F := Ideal) x2 x3 (ix2 p z)
      = ∑ j : Fin 4096, ((Cert.Loss.mark (x2 (ix2 p (0 : Fin 1))) (x3 (ix2 (0 : Fin 1) j)) : ℝ) : EReal) :=
  (pos_cnt_at x2 x3 p z).trans (Finset.sum_congr rfl fun j _ => by rw [mask_at])

end Cert.KernelIdeal.Payload

end
-- ==== Proof.Blocks.lean ====
/-
  From blocks to arrays: what the three columns hold after the region.

  Grid point `t` of 16 reads rows `256·t … 256·t + 255` of the inputs and of the class-word column, and the whole of the
  gathered rows and of the class-word row; it writes rows `256·t … 256·t + 255` of each of the three 4096 × 1 columns. So the
  point that writes row `r` is `r / 256`, the 16 blocks tile each column, and entry `(r, 0)` of a column is the body's
  sum for row `r`: over all `j`, the similarity of input row `r` and gathered row `j` times their mark; the similarity; the mark.
-/
import proofs.«166522_j26860725469565_1_alg».proof.Proof.Gen.KernelIdeal.Frame
import proofs.«166522_j26860725469565_1_alg».proof.Proof.Payload
import Idealize.ShloMosaic.Lib.Pipeline.Value
import Idealize.ShloMosaic.Lib.ValueIdx
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

theorem hz : (![0, 0] : Fin 2 → Nat) = fun _ => 0 := funext fun a => by fin_cases a <;> rfl

/-- The printed index maps, decided over the 16 points: the inputs, the class-word column and the three output columns
    move with the point along the rows; the gathered rows and the class-word row stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as rows of the arrays the region finds -/

/-- Entry `(q, k)` of the inputs' block at point `t` is entry `(256·t + q, k)` of the inputs. -/
theorem inputs_blk (c : Dev nD) (t : Fin cfg0.N) (q : Fin 256) (k : Fin 1024) (r : Fin 4096) (hr : r.val = 256 * t.val + q.val) :
    (iblk m c 0 t : FVec Ideal S256x1024 .bf16) (ix2 q k) = (V m c main_v7 : S4096x1024.Idx → EReal) (ix2 r k) := by
  obtain ⟨e0, e1, -⟩ := idx_facts t
  unfold iblk
  rw [View.read_apply]
  show (V m c main_v7 : S4096x1024.Idx → EReal) _ = (V m c main_v7 : S4096x1024.Idx → EReal) _
  refine congrArg (V m c main_v7 : S4096x1024.Idx → EReal) ?_
  funext a
  apply Fin.ext
  match a with
  | ⟨0, _⟩ => show win0_0.index t (0 : Fin 2) * 256 + 1 * q.val = r.val; rw [e0, hr]; omega
  | ⟨1, _⟩ => show win0_0.index t (1 : Fin 2) * 1024 + 1 * k.val = k.val; rw [e1]; omega

/-- The gathered rows' block is all of them at every point. -/
theorem gathered_blk (c : Dev nD) (t : Fin cfg0.N) (j : Fin 4096) (k : Fin 1024) :
    (iblk m c 1 t : FVec Ideal S4096x1024 .bf16) (ix2 j k) = (V m c main_v8 : S4096x1024.Idx → EReal) (ix2 j k) := by
  obtain ⟨-, -, e0, e1, -⟩ := idx_facts t
  unfold iblk
  rw [View.read_apply]
  show (V m c main_v8 : S4096x1024.Idx → EReal) _ = (V m c main_v8 : S4096x1024.Idx → EReal) _
  refine congrArg (V m c main_v8 : S4096x1024.Idx → EReal) ?_
  funext a
  apply Fin.ext
  match a with
  | ⟨0, _⟩ => show win0_1.index t (0 : Fin 2) * 4096 + 1 * j.val = j.val; rw [e0]; omega
  | ⟨1, _⟩ => show win0_1.index t (1 : Fin 2) * 1024 + 1 * k.val = k.val; rw [e1]; omega

/-- Entry `(q, z)` of the class-word column's block at point `t` is entry `(256·t + q, z)` of the column. -/
theorem column_blk (c : Dev nD) (t : Fin cfg0.N) (q : Fin 256) (z : Fin 1) (r : Fin 4096) (hr : r.val = 256 * t.val + q.val) :
    (iblk m c 2 t : IVec S256x1 32) (ix2 q z) = (V m c main_v9 : S4096x1.Idx → BitVec 32) (ix2 r z) := by
  obtain ⟨-, -, -, -, e0, e1, -⟩ := idx_facts t
  unfold iblk
  rw [View.read_apply]
  show (V m c main_v9 : S4096x1.Idx → BitVec 32) _ = (V m c main_v9 : S4096x1.Idx → BitVec 32) _
  refine congrArg (V m c main_v9 : S4096x1.Idx → BitVec 32) ?_
  funext a
  apply Fin.ext
  match a with
  | ⟨0, _⟩ => show win0_2.index t (0 : Fin 2) * 256 + 1 * q.val = r.val; rw [e0, hr]; omega
  | ⟨1, _⟩ => show win0_2.index t (1 : Fin 2) * 1 + 1 * z.val = z.val; rw [e1]; omega

/-- The class-word row's block is all of it at every point. -/
theorem row_blk (c : Dev nD) (t : Fin cfg0.N) (u : Fin 1) (j : Fin 4096) :
    (iblk m c 3 t : IVec S1x4096 32) (ix2 u j) = (V m c main_v10 : S1x4096.Idx → BitVec 32) (ix2 u j) := by
  obtain ⟨-, -, -, -, -, -, e0, e1, -⟩ := idx_facts t
  unfold iblk
  rw [View.read_apply]
  show (V m c main_v10 : S1x4096.Idx → BitVec 32) _ = (V m c main_v10 : S1x4096.Idx → BitVec 32) _
  refine congrArg (V m c main_v10 : S1x4096.Idx → BitVec 32) ?_
  funext a
  apply Fin.ext
  match a with
  | ⟨0, _⟩ => show win0_3.index t (0 : Fin 2) * 1 + 1 * u.val = u.val; rw [e0]; omega
  | ⟨1, _⟩ => show win0_3.index t (1 : Fin 2) * 4096 + 1 * j.val = j.val; rw [e1]; omega

/-! ## The three columns as whole-array functions -/

/-- The similarity of input row `r` and gathered row `j`, over the arrays the region finds. -/
def simV (c : Dev nD) (r j : Fin 4096) : EReal :=
  Cert.Loss.sim (V m c main_v7 : S4096x1024.Idx → EReal) (V m c main_v8 : S4096x1024.Idx → EReal) r j

/-- The mark of class words `r` (from the column) and `j` (from the row). -/
def markV (c : Dev nD) (r j : Fin 4096) : EReal :=
  ((Cert.Loss.mark ((V m c main_v9 : S4096x1.Idx → BitVec 32) (ix2 r (0 : Fin 1)))
    ((V m c main_v10 : S1x4096.Idx → BitVec 32) (ix2 (0 : Fin 1) j)) : ℝ) : EReal)

/-- The row of an index of a 4096 × 1 column. -/
def rowOf (i : S4096x1.Idx) : Fin 4096 := ⟨(i 0).val, idx2_lt0 i⟩

/-- The masked sums. -/
def posSum (c : Dev nD) : S4096x1.Idx → EReal := fun i => ∑ j : Fin 4096, simV m c (rowOf i) j * markV m c (rowOf i) j
/-- The sums. -/
def totSum (c : Dev nD) : S4096x1.Idx → EReal := fun i => ∑ j : Fin 4096, simV m c (rowOf i) j
/-- The counts. -/
def posCnt (c : Dev nD) : S4096x1.Idx → EReal := fun i => ∑ j : Fin 4096, markV m c (rowOf i) j

/-! ## Output column 4: the masked sums -/

/-- What point `t` writes back to column 4 is block `t` of `posSum`. -/
theorem flushed4 (c : Dev nD) (t : Fin cfg0.N) :
    (dats m 0 c).flushed 4 t = ((cfg0.win 4).blk t).view.read (Elt Ideal) (posSum m c) := by
  show (cfg0.win 4).cut (grid0.coords t) ((dats m 0 c).after 4 t) = _
  rw [after0_4]
  unfold out0_4
  rw [View.canon_unit_zero hz]
  simp only [View.ld_unit_zero (S := S256x1024) hz, View.ld_unit_zero (S := S4096x1024) hz,
    View.ld_unit_zero (S := S256x1) hz, View.ld_unit_zero (S := S1x4096) hz]
  funext y
  obtain ⟨q, z, rfl⟩ : ∃ (q : Fin 256) (z : Fin 1), y = ix2 q z := ⟨y 0, y 1, eq_ix2 y⟩
  obtain ⟨-, -, -, -, -, -, -, -, e40, e41, e50, e51, e60, e61⟩ := idx_facts t
  have hN : cfg0.N = 16 := N_0
  have hr : 256 * t.val + q.val < 4096 := by have := t.isLt; omega
  show k0_pay3 (F := Ideal) (iblk m c 0 t) (iblk m c 1 t) (iblk m c 2 t) (iblk m c 3 t) (ix2 q z) = posSum m c (((cfg0.win 4).blk t).view.emb (ix2 q z))
  refine (Payload.pos_sum_entries (iblk m c 0 t) (iblk m c 1 t) (iblk m c 2 t) (iblk m c 3 t) q z).trans ?_
  have hrow : rowOf (((cfg0.win 4).blk t).view.emb (ix2 q z)) = ⟨256 * t.val + q.val, hr⟩ := by
    apply Fin.ext
    show win0_4.index t (0 : Fin 2) * 256 + 1 * q.val = 256 * t.val + q.val
    rw [e40]; omega
  show _ = ∑ j : Fin 4096, _
  rw [hrow]
  refine Finset.sum_congr rfl fun j _ => ?_
  unfold simV markV Cert.Loss.sim
  rw [column_blk m c t q 0 ⟨_, hr⟩ rfl, row_blk m c t 0 j]
  refine congrArg (· * _) ?_
  exact Finset.sum_congr rfl fun k _ => by rw [inputs_blk m c t q k ⟨_, hr⟩ rfl, gathered_blk m c t j k]

/-- An index of column 4 is in point `t`'s block iff each coordinate is in the block's range. -/
theorem mem_blk4 (t : Fin cfg0.N) (i : S4096x1.Idx) :
    i ∈ ((cfg0.win 4).blk t).view.set ↔ ∀ a : Fin 2, win0_4.index t a * S256x1.size a ≤ (i a).val
      ∧ (i a).val < win0_4.index t a * S256x1.size a + S256x1.size a := by
  show i ∈ ((View.whole main_v11_0).slice (win0_4.rect t)).set ↔ _
  rw [View.set_slice_whole, Rect.mem_set_unit]
  exact Iff.rfl

/-- Row `r` of column 4 is written by point `r / 256`: the blocks tile the column. -/
theorem cover4 (i : S4096x1.Idx) :
    ∃ t : Fin cfg0.N, (cfg0.win 4).flush t = true ∧ i ∈ ((cfg0.win 4).blk t).view.set := by
  have hi0 : (i 0).val < 4096 := idx2_lt0 i
  have hi1 : (i 1).val < 1 := idx2_lt1 i
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, e40, e41, e50, e51, e60, e61⟩ := idx_facts t
  refine ⟨t, flush0_4 t, ?_⟩
  rw [mem_blk4]
  intro a
  match a with
  | ⟨0, _⟩ =>
    show win0_4.index t (0 : Fin 2) * 256 ≤ (i 0).val ∧ (i 0).val < win0_4.index t (0 : Fin 2) * 256 + 256
    rw [e40, ht]; omega
  | ⟨1, _⟩ =>
    show win0_4.index t (1 : Fin 2) * 1 ≤ (i 1).val ∧ (i 1).val < win0_4.index t (1 : Fin 2) * 1 + 1
    rw [e41]; omega

/-- COLUMN 4 AFTER THE REGION is `posSum`. -/
theorem final4 (c : Dev nD) : (dats m 0 c).arrAt 4 cfg0.N = posSum m c :=
  (dats m 0 c).arrAt_eq_of_cover 4 (posSum m c) (fun t _ => flushed4 m c t) cover4

/-! ## Output column 5: the sums -/

/-- What point `t` writes back to column 5 is block `t` of `totSum`. -/
theorem flushed5 (c : Dev nD) (t : Fin cfg0.N) :
    (dats m 0 c).flushed 5 t = ((cfg0.win 5).blk t).view.read (Elt Ideal) (totSum m c) := by
  show (cfg0.win 5).cut (grid0.coords t) ((dats m 0 c).after 5 t) = _
  rw [after0_5]
  unfold out0_5
  rw [View.canon_unit_zero hz]
  simp only [View.ld_unit_zero (S := S256x1024) hz, View.ld_unit_zero (S := S4096x1024) hz,
    View.ld_unit_zero (S := S256x1) hz, View.ld_unit_zero (S := S1x4096) hz]
  funext y
  obtain ⟨q, z, rfl⟩ : ∃ (q : Fin 256) (z : Fin 1), y = ix2 q z := ⟨y 0, y 1, eq_ix2 y⟩
  obtain ⟨-, -, -, -, -, -, -, -, e40, e41, e50, e51, e60, e61⟩ := idx_facts t
  have hN : cfg0.N = 16 := N_0
  have hr : 256 * t.val + q.val < 4096 := by have := t.isLt; omega
  show k0_pay4 (F := Ideal) (iblk m c 0 t) (iblk m c 1 t) (ix2 q z) = totSum m c (((cfg0.win 5).blk t).view.emb (ix2 q z))
  refine (Payload.tot_sum_entries (iblk m c 0 t) (iblk m c 1 t) q z).trans ?_
  have hrow : rowOf (((cfg0.win 5).blk t).view.emb (ix2 q z)) = ⟨256 * t.val + q.val, hr⟩ := by
    apply Fin.ext
    show win0_5.index t (0 : Fin 2) * 256 + 1 * q.val = 256 * t.val + q.val
    rw [e50]; omega
  show _ = ∑ j : Fin 4096, _
  rw [hrow]
  refine Finset.sum_congr rfl fun j _ => ?_
  unfold simV Cert.Loss.sim
  exact Finset.sum_congr rfl fun k _ => by rw [inputs_blk m c t q k ⟨_, hr⟩ rfl, gathered_blk m c t j k]

/-- An index of column 5 is in point `t`'s block iff each coordinate is in the block's range. -/
theorem mem_blk5 (t : Fin cfg0.N) (i : S4096x1.Idx) :
    i ∈ ((cfg0.win 5).blk t).view.set ↔ ∀ a : Fin 2, win0_5.index t a * S256x1.size a ≤ (i a).val
      ∧ (i a).val < win0_5.index t a * S256x1.size a + S256x1.size a := by
  show i ∈ ((View.whole main_v11_1).slice (win0_5.rect t)).set ↔ _
  rw [View.set_slice_whole, Rect.mem_set_unit]
  exact Iff.rfl

/-- Row `r` of column 5 is written by point `r / 256`: the blocks tile the column. -/
theorem cover5 (i : S4096x1.Idx) :
    ∃ t : Fin cfg0.N, (cfg0.win 5).flush t = true ∧ i ∈ ((cfg0.win 5).blk t).view.set := by
  have hi0 : (i 0).val < 4096 := idx2_lt0 i
  have hi1 : (i 1).val < 1 := idx2_lt1 i
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, e40, e41, e50, e51, e60, e61⟩ := idx_facts t
  refine ⟨t, flush0_5 t, ?_⟩
  rw [mem_blk5]
  intro a
  match a with
  | ⟨0, _⟩ =>
    show win0_5.index t (0 : Fin 2) * 256 ≤ (i 0).val ∧ (i 0).val < win0_5.index t (0 : Fin 2) * 256 + 256
    rw [e50, ht]; omega
  | ⟨1, _⟩ =>
    show win0_5.index t (1 : Fin 2) * 1 ≤ (i 1).val ∧ (i 1).val < win0_5.index t (1 : Fin 2) * 1 + 1
    rw [e51]; omega

/-- COLUMN 5 AFTER THE REGION is `totSum`. -/
theorem final5 (c : Dev nD) : (dats m 0 c).arrAt 5 cfg0.N = totSum m c :=
  (dats m 0 c).arrAt_eq_of_cover 5 (totSum m c) (fun t _ => flushed5 m c t) cover5

/-! ## Output column 6: the counts -/

/-- What point `t` writes back to column 6 is block `t` of `posCnt`. -/
theorem flushed6 (c : Dev nD) (t : Fin cfg0.N) :
    (dats m 0 c).flushed 6 t = ((cfg0.win 6).blk t).view.read (Elt Ideal) (posCnt m c) := by
  show (cfg0.win 6).cut (grid0.coords t) ((dats m 0 c).after 6 t) = _
  rw [after0_6]
  unfold out0_6
  rw [View.canon_unit_zero hz]
  simp only [View.ld_unit_zero (S := S256x1024) hz, View.ld_unit_zero (S := S4096x1024) hz,
    View.ld_unit_zero (S := S256x1) hz, View.ld_unit_zero (S := S1x4096) hz]
  funext y
  obtain ⟨q, z, rfl⟩ : ∃ (q : Fin 256) (z : Fin 1), y = ix2 q z := ⟨y 0, y 1, eq_ix2 y⟩
  obtain ⟨-, -, -, -, -, -, -, -, e40, e41, e50, e51, e60, e61⟩ := idx_facts t
  have hN : cfg0.N = 16 := N_0
  have hr : 256 * t.val + q.val < 4096 := by have := t.isLt; omega
  show k0_pay5 (F := Ideal) (iblk m c 2 t) (iblk m c 3 t) (ix2 q z) = posCnt m c (((cfg0.win 6).blk t).view.emb (ix2 q z))
  refine (Payload.pos_cnt_entries (iblk m c 2 t) (iblk m c 3 t) q z).trans ?_
  have hrow : rowOf (((cfg0.win 6).blk t).view.emb (ix2 q z)) = ⟨256 * t.val + q.val, hr⟩ := by
    apply Fin.ext
    show win0_6.index t (0 : Fin 2) * 256 + 1 * q.val = 256 * t.val + q.val
    rw [e60]; omega
  show _ = ∑ j : Fin 4096, _
  rw [hrow]
  refine Finset.sum_congr rfl fun j _ => ?_
  unfold markV
  rw [column_blk m c t q 0 ⟨_, hr⟩ rfl, row_blk m c t 0 j]

/-- An index of column 6 is in point `t`'s block iff each coordinate is in the block's range. -/
theorem mem_blk6 (t : Fin cfg0.N) (i : S4096x1.Idx) :
    i ∈ ((cfg0.win 6).blk t).view.set ↔ ∀ a : Fin 2, win0_6.index t a * S256x1.size a ≤ (i a).val
      ∧ (i a).val < win0_6.index t a * S256x1.size a + S256x1.size a := by
  show i ∈ ((View.whole main_v11_2).slice (win0_6.rect t)).set ↔ _
  rw [View.set_slice_whole, Rect.mem_set_unit]
  exact Iff.rfl

/-- Row `r` of column 6 is written by point `r / 256`: the blocks tile the column. -/
theorem cover6 (i : S4096x1.Idx) :
    ∃ t : Fin cfg0.N, (cfg0.win 6).flush t = true ∧ i ∈ ((cfg0.win 6).blk t).view.set := by
  have hi0 : (i 0).val < 4096 := idx2_lt0 i
  have hi1 : (i 1).val < 1 := idx2_lt1 i
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, e40, e41, e50, e51, e60, e61⟩ := idx_facts t
  refine ⟨t, flush0_6 t, ?_⟩
  rw [mem_blk6]
  intro a
  match a with
  | ⟨0, _⟩ =>
    show win0_6.index t (0 : Fin 2) * 256 ≤ (i 0).val ∧ (i 0).val < win0_6.index t (0 : Fin 2) * 256 + 256
    rw [e60, ht]; omega
  | ⟨1, _⟩ =>
    show win0_6.index t (1 : Fin 2) * 1 ≤ (i 1).val ∧ (i 1).val < win0_6.index t (1 : Fin 2) * 1 + 1
    rw [e61]; omega

/-- COLUMN 6 AFTER THE REGION is `posCnt`. -/
theorem final6 (c : Dev nD) : (dats m 0 c).arrAt 6 cfg0.N = posCnt m c :=
  (dats m 0 c).arrAt_eq_of_cover 6 (posCnt m c) (fun t _ => flushed6 m c t) cover6

end Cert.KernelIdeal.Blocks

end
-- ==== Proof.HostOps.lean ====
/-
  The host operations around the region, read as values.

  Before the region: the inputs and the gathered rows change format only (the identity on extended reals); the rows are
  gathered from the table at the class words, a negative word first having the table's 10000 rows added; and the class
  words reach the body twice, as a 4096 × 1 column and as a 1 × 4096 row.

  After the region: the three 4096 × 1 columns the region wrote (the masked sums, the sums, the counts) are read as
  vectors; row `p` of the loss is `(1 − posₚ / cntₚ) + (totₚ − posₚ) / (4096 − cntₚ)`; the result is the sum of the rows,
  started from the zero word, divided by 4096.
-/
import proofs.«166522_j26860725469565_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.HostOps

open Cert.KernelIdeal Cert.KernelIdeal.Gen

/-! ## The terms -/

/-- The class words as row indices into the table: a negative word has the table's 10000 rows added; kept as a column. -/
def rowIndex (t : IVec S4096 32) : IVec S4096x1 32 :=
  broadcastInDim S4096x1 ![0] bcast_S4096_S4096x1_0
    (select (cmpi .slt t (broadcastInDim S4096 ![] bcast_S_S4096 (constantI S_ 32 0#32)))
      (addi t (broadcastInDim S4096 ![] bcast_S_S4096 (constantI S_ 32 10000#32))) t)

/-- The table's rows at the class words. -/
def gathered (t : IVec S4096 32) (w : FVec Ideal S10000x1024 .f32) : FVec Ideal S4096x1024 .f32 :=
  Host.gather gather_S10000x1024_S4096x1_S4096x1024_1_0_n_n_0_1_11024 w (rowIndex t)

/-- The rows of the loss from the three columns the region wrote. -/
def rowsOf (a4 a5 a6 : FVec Ideal S4096x1 .f32) : FVec Ideal S4096 .f32 :=
  addf (subf (broadcastInDim S4096 ![] bcast_S_S4096 (constant (F := Ideal) S_ .f32 0x3F800000#32))
      (Host.divf (shapeCast S4096 a4 shapeCasts_S4096x1_S4096) (shapeCast S4096 a6 shapeCasts_S4096x1_S4096)))
    (Host.divf (subf (shapeCast S4096 a5 shapeCasts_S4096x1_S4096) (shapeCast S4096 a4 shapeCasts_S4096x1_S4096))
      (subf (broadcastInDim S4096 ![] bcast_S_S4096 (constant (F := Ideal) S_ .f32 0x45800000#32))
        (shapeCast S4096 a6 shapeCasts_S4096x1_S4096)))

/-- The mean of the rows: their sum from the zero word, divided by 4096. -/
def meanOf (rows : FVec Ideal S4096 .f32) : FVec Ideal S_ .f32 :=
  Host.divf (Host.reduceAdd rows (constant (F := Ideal) S_ .f32 0x00000000#32) reducesTo_S4096_S_d0 h_S_)
    (constant (F := Ideal) S_ .f32 0x45800000#32)

variable (m : (ℓ : Loc nD τ sig) → Buf (Elt Ideal) ℓ)

/-! ## Before the region -/

/-- The body's first operand is the inputs. -/
theorem V_inputs (c : Dev nD) :
    (V m c main_v7 : S4096x1024.Idx → EReal) = (m ((c : Thread nD τ).loc main_arg0) : S4096x1024.Idx → EReal) := by
  show StableHlo.after hostOps0 (fun b => m (c, b)) (Proc.devRef .tc main_v7) = _
  after_results
  rfl

/-- Its second operand is the gathered rows. -/
theorem V_gathered (c : Dev nD) :
    (V m c main_v8 : S4096x1024.Idx → EReal)
      = gathered (m ((c : Thread nD τ).loc main_arg1)) (m ((c : Thread nD τ).loc main_arg2)) := by
  show StableHlo.after hostOps0 (fun b => m (c, b)) (Proc.devRef .tc main_v8) = _
  after_results
  rfl

/-- Its third operand is the class words as a column. -/
theorem V_column (c : Dev nD) :
    (V m c main_v9 : S4096x1.Idx → BitVec 32)
      = shapeCast S4096x1 (m ((c : Thread nD τ).loc main_arg1) : S4096.Idx → BitVec 32) shapeCasts_S4096_S4096x1 := by
  show StableHlo.after hostOps0 (fun b => m (c, b)) (Proc.devRef .tc main_v9) = _
  after_results
  rfl

/-- Its fourth operand is the class words as a row. -/
theorem V_row (c : Dev nD) :
    (V m c main_v10 : S1x4096.Idx → BitVec 32)
      = shapeCast S1x4096 (m ((c : Thread nD τ).loc main_arg1) : S4096.Idx → BitVec 32) shapeCasts_S4096_S1x4096 := by
  show StableHlo.after hostOps0 (fun b => m (c, b)) (Proc.devRef .tc main_v10) = _
  after_results
  rfl

/-! ## After the region -/

/-- The lines after the region find each column the region wrote at what the region left there. -/
theorem col4 (c : Dev nD) :
    Pipeline.withArrays (cfgs 0).spec c (V0 m c) (fun w => (dats m 0 c).arrAt w (cfgs 0).N) (Proc.devRef .tc main_v11_0)
      = (dats m 0 c).arrAt 4 cfg0.N :=
  Pipeline.withArrays_arr spec0 launch0.win.arr_inj c (V0 m c) _ 4
theorem col5 (c : Dev nD) :
    Pipeline.withArrays (cfgs 0).spec c (V0 m c) (fun w => (dats m 0 c).arrAt w (cfgs 0).N) (Proc.devRef .tc main_v11_1)
      = (dats m 0 c).arrAt 5 cfg0.N :=
  Pipeline.withArrays_arr spec0 launch0.win.arr_inj c (V0 m c) _ 5
theorem col6 (c : Dev nD) :
    Pipeline.withArrays (cfgs 0).spec c (V0 m c) (fun w => (dats m 0 c).arrAt w (cfgs 0).N) (Proc.devRef .tc main_v11_2)
      = (dats m 0 c).arrAt 6 cfg0.N :=
  Pipeline.withArrays_arr spec0 launch0.win.arr_inj c (V0 m c) _ 6

/-- THE RESULT: the mean of the rows of the loss computed from the three columns. -/
theorem result_eq (c : Dev nD) :
    (Pipeline.afterTail₀ cfgs (dats m) 0 (V0 m) [hostOps1] c main_v24 : S_.Idx → EReal)
      = meanOf (rowsOf ((dats m 0 c).arrAt 4 cfg0.N) ((dats m 0 c).arrAt 5 cfg0.N) ((dats m 0 c).arrAt 6 cfg0.N)) := by
  generalize hR : meanOf (rowsOf ((dats m 0 c).arrAt 4 cfg0.N) ((dats m 0 c).arrAt 5 cfg0.N) ((dats m 0 c).arrAt 6 cfg0.N)) = R
  unfold Pipeline.afterTail₀
  show StableHlo.after (hostOps1 (F := Ideal)) _ (Proc.devRef .tc main_v24) = R
  after_results
  rw [col4 m c, col5 m c, col6 m c, ← hR]
  rfl

end Cert.KernelIdeal.HostOps

end
-- ==== Proof.LibBlocks.lean ====
/-
  Three more ways a block of numbers is read at an index — general in the extents.

  An `a × n` matrix with `n = b·c`, recast as an `a × b × c` block (each row cut into `b` groups of `c`), reads at
  `(p, s, l)` the matrix's entry `(p, c·s + l)`; an `a × 1` column recast as a vector reads at `p` the column's entry
  `(p, 0)`; and the sum of an `a × b × c` block along its middle axis, over the
  extended reals, reads at `(p, q)` the sum over `k` of the entries `(p, k, q)`.
-/
import Idealize.ShloMosaic.Lib.Pipeline.Value
import Idealize.ShloMosaic.Lib.ValueIdx
import Idealize.ShloMosaic.PureOps.Ideal.Laws

noncomputable section

open scoped BigOperators

namespace Cert.LibBlocks

open Idealize.ShloMosaic Idealize.ShloMosaic.ValueIdx

variable {α : Type}

/-- A matrix whose rows of length `n = b·c` are cut into `b` groups of `c` reads, at `(p, s, l)`, its entry
    `(p, c·s + l)`. -/
theorem shapeCast_rows_split_apply {a b c n : ℕ} (hn : n = b * c) (x : (⟨2, ![a, n]⟩ : Shape).Idx → α)
    (h : (⟨2, ![a, n]⟩ : Shape).ShapeCasts ⟨3, ![a, b, c]⟩) (p : Fin a) (s : Fin b) (l : Fin c) (q : Fin n)
    (hq : q.val = c * s.val + l.val) :
    shapeCast ⟨3, ![a, b, c]⟩ x h (ix3 p s l) = x (ix2 p q) := by
  refine shapeCast_apply x h (ix3 p s l) (ix2 p q) ?_
  rw [Shape.rowMajor_val_two, Shape.rowMajor_val_three]
  show p.val * n + q.val = (p.val * b + s.val) * c + l.val
  rw [hq, hn]
  ring

/-- An `a × 1` column recast as a vector of `a` entries reads, at `p`, the column's entry `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) := by
  refine shapeCast_apply x h (ix1 p) (ix2 p (0 : Fin 1)) ?_
  rw [Shape.rowMajor_val_one, Shape.rowMajor_val_two]
  show p.val * 1 + 0 = p.val
  omega

/-- Over the extended reals the sum of an `a × b × c` block along its middle axis reads, at `(p, q)`,
    `∑ₖ src (p, k, q)`. -/
theorem midSum_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (q : Fin c) :
    multiReduction .add [1] ⟨2, ![a, c]⟩ src acc h hφ hacc (ix2 p q) = ∑ k : Fin b, src (ix3 p k q) := by
  refine (Ideal.multiReduction_add_single src acc h hφ hacc (ix2 p q)).trans ?_
  refine Finset.sum_congr rfl fun k _ => congrArg src ?_
  funext d
  apply Fin.ext
  match d with
  | ⟨0, _⟩ => rfl
  | ⟨1, _⟩ => rfl
  | ⟨2, _⟩ => rfl

end Cert.LibBlocks

end
-- ==== Proof.KernelRows.lean ====
/-
  The first program's rows of the loss, over its arguments.

  The three columns the region wrote hold, at row `r`, the sums over `j` of `sim r j · mark r j`, of `sim r j` and of
  `mark r j`, where `sim r j` is the dot product of input row `r` with gathered row `j` and `mark r j` compares class words
  `r` and `j` (the column cast `[4096] → [4096, 1]` reads word `r` at `(r, 0)`, the row cast `[4096] → [1, 4096]` word `j` at
  `(0, j)`). The lines after the region read the columns as vectors and form, at row `p`,
  `(1 − posₚ / cntₚ) + (totₚ − posₚ) / (4096 − cntₚ)`.
-/
import proofs.«166522_j26860725469565_1_alg».proof.Proof.Blocks
import proofs.«166522_j26860725469565_1_alg».proof.Proof.HostOps
import proofs.«166522_j26860725469565_1_alg».proof.Proof.LibBlocks
import proofs.«166522_j26860725469565_1_alg».proof.Proof.LibColumns
import Idealize.ShloMosaic.Lib.ValueLayout

noncomputable section

open scoped BigOperators

open Idealize.ShloMosaic Idealize.ShloMosaic.TcCoe Idealize.SL.Sem
open Idealize.ShloMosaic.Pipeline (Dat)

namespace Cert.KernelIdeal.Rows

open Cert.KernelIdeal Cert.KernelIdeal.Gen Cert.KernelIdeal.Blocks Cert.KernelIdeal.HostOps Idealize.ShloMosaic.ValueIdx

variable (m : (ℓ : Loc nD τ sig) → Buf (Elt Ideal) ℓ)

/-- The similarities over the arguments: input row `r` against the table's row at class word `j`. -/
theorem simV_eq (c : Dev nD) (r j : Fin 4096) :
    simV m c r j = Cert.Loss.sim ((m ((c : Thread nD τ).loc main_arg0)) : S4096x1024.Idx → EReal) (gathered ((m ((c : Thread nD τ).loc main_arg1)) : S4096.Idx → BitVec 32) ((m ((c : Thread nD τ).loc main_arg2)) : S10000x1024.Idx → EReal)) r j := by
  unfold simV
  rw [V_inputs m c, V_gathered m c]

/-- The marks over the arguments: class words `r` and `j`. -/
theorem markV_eq (c : Dev nD) (r j : Fin 4096) :
    markV m c r j = Cert.Loss.marks ((m ((c : Thread nD τ).loc main_arg1)) : S4096.Idx → BitVec 32) r j := by
  unfold markV Cert.Loss.marks
  rw [V_column m c, V_row m c, Cert.LibColumns.shapeCast_a_a1_apply _ shapeCasts_S4096_S4096x1 r (0 : Fin 1),
    shapeCast_a_1a_apply _ shapeCasts_S4096_S1x4096 (0 : Fin 1) j]

/-- Row `p` of the loss from any three columns. -/
theorem rowsOf_at (a4 a5 a6 : FVec Ideal S4096x1 .f32) (p : Fin 4096) :
    rowsOf a4 a5 a6 (ix1 p)
      = (Ideal.ofBits .f32 0x3F800000#32 - Ideal.div (a4 (ix2 p (0 : Fin 1))) (a6 (ix2 p (0 : Fin 1))))
        + Ideal.div (a5 (ix2 p (0 : Fin 1)) - a4 (ix2 p (0 : Fin 1))) (Ideal.ofBits .f32 0x45800000#32 - a6 (ix2 p (0 : Fin 1))) := by
  have e4 := Cert.LibBlocks.shapeCast_a1_a_apply a4 shapeCasts_S4096x1_S4096 p
  have e5 := Cert.LibBlocks.shapeCast_a1_a_apply a5 shapeCasts_S4096x1_S4096 p
  have e6 := Cert.LibBlocks.shapeCast_a1_a_apply a6 shapeCasts_S4096x1_S4096 p
  show (Ideal.ofBits .f32 0x3F800000#32 - Ideal.div (shapeCast S4096 a4 shapeCasts_S4096x1_S4096 (ix1 p)) (shapeCast S4096 a6 shapeCasts_S4096x1_S4096 (ix1 p)))
      + Ideal.div (shapeCast S4096 a5 shapeCasts_S4096x1_S4096 (ix1 p) - shapeCast S4096 a4 shapeCasts_S4096x1_S4096 (ix1 p))
          (Ideal.ofBits .f32 0x45800000#32 - shapeCast S4096 a6 shapeCasts_S4096x1_S4096 (ix1 p)) = _
  rw [e4, e5, e6]

/-- ROW `p` of the first program's loss, over the arguments. -/
theorem row_at (c : Dev nD) (p : Fin 4096) :
    rowsOf (posSum m c) (totSum m c) (posCnt m c) (ix1 p)
      = Cert.Loss.rowK (fun j => Cert.Loss.sim ((m ((c : Thread nD τ).loc main_arg0)) : S4096x1024.Idx → EReal) (gathered ((m ((c : Thread nD τ).loc main_arg1)) : S4096.Idx → BitVec 32) ((m ((c : Thread nD τ).loc main_arg2)) : S10000x1024.Idx → EReal)) p j) (Cert.Loss.marks ((m ((c : Thread nD τ).loc main_arg1)) : S4096.Idx → BitVec 32) p)
          (Ideal.ofBits .f32 0x3F800000#32) (Ideal.ofBits .f32 0x45800000#32) := by
  rw [rowsOf_at]
  have hs : ∀ j, simV m c (rowOf (ix2 p (0 : Fin 1))) j = Cert.Loss.sim ((m ((c : Thread nD τ).loc main_arg0)) : S4096x1024.Idx → EReal) (gathered ((m ((c : Thread nD τ).loc main_arg1)) : S4096.Idx → BitVec 32) ((m ((c : Thread nD τ).loc main_arg2)) : S10000x1024.Idx → EReal)) p j :=
    fun j => simV_eq m c p j
  have hm : ∀ j, markV m c (rowOf (ix2 p (0 : Fin 1))) j = Cert.Loss.marks ((m ((c : Thread nD τ).loc main_arg1)) : S4096.Idx → BitVec 32) p j :=
    fun j => markV_eq m c p j
  unfold Cert.Loss.rowK posSum totSum posCnt
  simp only [hs, hm]

/-- The result over the arguments: the mean of these rows. -/
theorem result_rows (c : Dev nD) :
    (Pipeline.afterTail₀ cfgs (dats m) 0 (V0 m) [hostOps1] c main_v24 : S_.Idx → EReal)
      = meanOf (rowsOf (posSum m c) (totSum m c) (posCnt m c)) := by
  rw [result_eq m c, final4 m c, final5 m c, final6 m c]

end Cert.KernelIdeal.Rows

end
-- ==== Proof.RefRows.lean ====
/-
  The second program's rows, read off its run one operation at a time.

  Row `p` of its last vector before the mean is the quotient of `Σⱼ (1 − simₚⱼ)·markₚⱼ` by `Σⱼ markₚⱼ` plus the quotient of
  `Σⱼ simₚⱼ·(1 − markₚⱼ)` by `Σⱼ (1 − markₚⱼ)`, each sum started from the zero word: `simₚⱼ` is the dot product of row `p` of
  the inputs with gathered row `j`, and `markₚⱼ` the 0/1 comparison of the class words of `p` and `j` (the two words reach
  entry `(p, j)` by a column spread over the columns and a row spread over the rows).
-/
import proofs.«166522_j26860725469565_1_alg».proof.Proof.Gen.ReferenceIdeal.Read
import proofs.«166522_j26860725469565_1_alg».proof.Proof.LossAlgebra
import Idealize.ShloMosaic.Lib.ValueIdx

noncomputable section

open scoped BigOperators

namespace Cert.RefRows

open Cert.ReferenceIdeal Cert.ReferenceIdeal.Gen Cert.ReferenceIdeal.Read Idealize.ShloMosaic Idealize.ShloMosaic.ValueIdx

variable (x0 : (⟨S4096x1024, .f32⟩ : BufTy).Contents (Elt Ideal)) (x1 : (⟨S4096, .i32⟩ : BufTy).Contents (Elt Ideal))
  (x2 : (⟨S10000x1024, .f32⟩ : BufTy).Contents (Elt Ideal))

/-! ## Where each operation reads its operand, in coordinates -/

/-- Summing entry `k` of row `p` reads the matrix at `(p, k)` (the four row sums share this reading). -/
theorem idx16 (p k : Fin 4096) : idx_main_v16 (ix1 p) k = ix2 p k :=
  funext fun a => Fin.ext (by match a with | ⟨0, _⟩ => rfl | ⟨1, _⟩ => rfl)
theorem idx17 (p k : Fin 4096) : idx_main_v17 (ix1 p) k = ix2 p k :=
  funext fun a => Fin.ext (by match a with | ⟨0, _⟩ => rfl | ⟨1, _⟩ => rfl)
theorem idx21 (p k : Fin 4096) : idx_main_v21 (ix1 p) k = ix2 p k :=
  funext fun a => Fin.ext (by match a with | ⟨0, _⟩ => rfl | ⟨1, _⟩ => rfl)
theorem idx24 (p k : Fin 4096) : idx_main_v24 (ix1 p) k = ix2 p k :=
  funext fun a => Fin.ext (by match a with | ⟨0, _⟩ => rfl | ⟨1, _⟩ => rfl)
/-- Entry `(p, j)` of the product contracts row `p` of the left operand … -/
theorem idxL (p j : Fin 4096) (k : Fin 1024) : lidx_main_v7 (ix2 p j) k = ix2 p k :=
  funext fun a => Fin.ext (by match a with | ⟨0, _⟩ => rfl | ⟨1, _⟩ => rfl)
/-- … with row `j` of the right one. -/
theorem idxR (p j : Fin 4096) (k : Fin 1024) : ridx_main_v7 (ix2 p j) k = ix2 j k :=
  funext fun a => Fin.ext (by match a with | ⟨0, _⟩ => rfl | ⟨1, _⟩ => rfl)
/-- The column of class words spread over the columns reads, at `(p, j)`, word `p` … -/
theorem idxC (p j : Fin 4096) : idx_main_v8 (idx_main_v10 (ix2 p j)) = ix1 p :=
  funext fun a => Fin.ext (by match a with | ⟨0, _⟩ => rfl)
/-- … and the row of class words spread over the rows reads word `j`. -/
theorem idxD (p j : Fin 4096) : idx_main_v9 (idx_main_v11 (ix2 p j)) = ix1 j :=
  funext fun a => Fin.ext (by match a with | ⟨0, _⟩ => rfl)

/-- Entry `(p, j)` of the mark matrix is the mark of the class words of `p` and `j`. -/
theorem mark_at (p j : Fin 4096) :
    val_main_v13 (F := Ideal) x1 (ix2 p j) = Cert.Loss.marks x1 p j := by
  rw [val_main_v13_apply, val_main_v12_apply, val_main_v10_apply, val_main_v8_apply, val_main_v11_apply, val_main_v9_apply,
    idxC, idxD]
  exact Cert.Loss.uitofp_mark _ _

/-- Entry `(p, j)` of the similarity matrix is the dot product of row `p` of the inputs with gathered row `j`. -/
theorem sim_at (p j : Fin 4096) :
    val_main_v7 (F := Ideal) x0 x1 x2 (ix2 p j) = Cert.Loss.sim x0 (val_main_v6 (F := Ideal) x1 x2) p j := by
  rw [val_main_v7_apply]
  unfold Cert.Loss.sim
  exact Finset.sum_congr rfl fun k _ => by rw [idxL, idxR]

/-- The broadcast `1.0` reads its word everywhere. -/
theorem one_at (i : S4096x4096.Idx) : val_main_v14 (F := Ideal) i = Ideal.ofBits .f32 0x3F800000#32 := by
  rw [val_main_v14_apply]; rfl

theorem one_at' (i : S4096x4096.Idx) : val_main_v18 (F := Ideal) i = Ideal.ofBits .f32 0x3F800000#32 := by
  rw [val_main_v18_apply]; rfl

/-- ROW `p` of the vector the mean is taken of. -/
theorem row_at (p : Fin 4096) :
    val_main_v26 (F := Ideal) x0 x1 x2 (ix1 p)
      = Cert.Loss.rowR (fun j => Cert.Loss.sim x0 (val_main_v6 (F := Ideal) x1 x2) p j) (Cert.Loss.marks x1 p)
          (Ideal.ofBits .f32 0x3F800000#32) (Ideal.ofBits .f32 0x00000000#32) := by
  rw [val_main_v26_apply, val_main_v22_apply, val_main_v25_apply, val_main_v21_apply, val_main_v16_apply,
    val_main_v24_apply, val_main_v17_apply]
  unfold Cert.Loss.rowR
  simp only [Ideal.addf_def, Ideal.hostDivf_def]
  have e21 : ∀ k : Fin 4096, val_main_v20 (F := Ideal) x0 x1 x2 (idx_main_v21 (ix1 p) k)
      = (Ideal.ofBits .f32 0x3F800000#32 - Cert.Loss.sim x0 (val_main_v6 (F := Ideal) x1 x2) p k) * Cert.Loss.marks x1 p k := fun k => by
    rw [idx21, val_main_v20_apply, val_main_v19_apply, one_at', sim_at, mark_at]; rfl
  have e16 : ∀ k : Fin 4096, val_main_v13 (F := Ideal) x1 (idx_main_v16 (ix1 p) k) = Cert.Loss.marks x1 p k := fun k => by rw [idx16]; exact mark_at x1 p k
  have e24 : ∀ k : Fin 4096, val_main_v23 (F := Ideal) x0 x1 x2 (idx_main_v24 (ix1 p) k)
      = Cert.Loss.sim x0 (val_main_v6 (F := Ideal) x1 x2) p k * (Ideal.ofBits .f32 0x3F800000#32 - Cert.Loss.marks x1 p k) := fun k => by
    rw [idx24, val_main_v23_apply, val_main_v15_apply, one_at, sim_at, mark_at]; rfl
  have e17 : ∀ k : Fin 4096, val_main_v15 (F := Ideal) x1 (idx_main_v17 (ix1 p) k)
      = Ideal.ofBits .f32 0x3F800000#32 - Cert.Loss.marks x1 p k := fun k => by
    rw [idx17, val_main_v15_apply, one_at, mark_at]; rfl
  simp only [e21, e16, e24, e17]
  rfl

end Cert.RefRows

end
-- ==== Proof.Finite.lean ====
/-
  What the precondition gives: every entry of the inputs and of the table is a real number.

  The precondition is the conjunction of two `all`s: at every index, the absolute value of the entry is below the word of
  `+∞`. An extended real whose absolute value `max x (−x)` is below `⊤` is neither `⊤` nor `⊥`, hence a real number.
-/
import proofs.«166522_j26860725469565_1_alg».proof.Pre_finite_inputs
import proofs.«166522_j26860725469565_1_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- The word of `+∞`. -/
theorem ofBits_inf : Ideal.ofBits .f32 0x7F800000#32 = (⊤ : EReal) := by
  simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- THE PRECONDITION READ: the inputs' and the table's entries are real numbers. -/
theorem real_of_pre (a0 : FVec Ideal S4096x1024 .f32) (a1 : IVec S4096 32) (a2 : FVec Ideal S10000x1024 .f32)
    (h : fn (F := Ideal) a0 a1 a2 = fun _ => 1#1) :
    (∀ i, ∃ r : ℝ, a0 i = (r : EReal)) ∧ (∀ i, ∃ r : ℝ, a2 i = (r : EReal)) := by
  have h0 := congrFun h ix0
  dsimp only [fn] at h0
  obtain ⟨e0, e2⟩ := IntOp.andi_eq_one.mp h0
  refine ⟨fun i => ?_, fun i => ?_⟩
  · exact real_of_abs_lt (a0 i) (Host.reduce_andi_all _ _ _ _ ix0 e0 i)
  · exact real_of_abs_lt (a2 i) (Host.reduce_andi_all _ _ _ _ ix0 e2 i)

end Cert.Finite

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.Join.lean ====
/-
  The two programs meet.

  With real entries in the inputs and in the table (the precondition), the gathered rows are real too — each is a row
  of the table, at the class word read signed and clamped into the table — so every similarity is a real number and the
  first program's row `p` of the loss equals the second's. Both programs then take the same mean of the same rows, so the
  first program's result is the term the second program's run ends at.
-/
import proofs.«166522_j26860725469565_1_alg».proof.Proof.KernelRows
import proofs.«166522_j26860725469565_1_alg».proof.Proof.RefRows
import proofs.«166522_j26860725469565_1_alg».proof.Proof.Finite
import proofs.«166522_j26860725469565_1_alg».proof.Proof.LibGatherRows

noncomputable section

open Idealize.ShloMosaic Idealize.ShloMosaic.TcCoe Idealize.SL.Sem
open Idealize.ShloMosaic.Pipeline (Dat)

namespace Cert.KernelIdeal.Join

open Cert.KernelIdeal Cert.KernelIdeal.Gen Cert.KernelIdeal.Blocks Cert.KernelIdeal.HostOps Idealize.ShloMosaic.ValueIdx

/-- The gathered rows are rows of the table: real entries when the table's are. -/
theorem gathered_real (t : IVec S4096 32) (w : FVec Ideal S10000x1024 .f32) (hw : ∀ i, ∃ r : ℝ, w i = (r : EReal)) :
    ∀ i, ∃ r : ℝ, gathered t w i = (r : EReal) := by
  intro i
  obtain ⟨r, k, rfl⟩ : ∃ (r : Fin 4096) (k : Fin 1024), i = ix2 r k := ⟨i 0, i 1, eq_ix2 i⟩
  obtain ⟨x, hx⟩ := hw (ix2 ⟨min ((rowIndex t) (ix2 r (0 : Fin 1))).toInt.toNat (10000 - 1), by omega⟩ k)
  exact ⟨x, (GatherRows.gather_rows_apply (N := 10000) (R := 4096) (C := 1024) (by decide)
    gather_S10000x1024_S4096x1_S4096x1024_1_0_n_n_0_1_11024_wf w (rowIndex t) r k).trans hx⟩

variable (m : (ℓ : Loc nD τ sig) → Buf (Elt Ideal) ℓ) (ρ : Dev nD → PrngReg)

/-- THE ROWS AGREE: the first program's rows of the loss are the second's, under real entries. -/
theorem rows_eq (c : Dev nD) (hx : ∀ i, ∃ r : ℝ, ((m ((c : Thread nD τ).loc main_arg0)) : S4096x1024.Idx → EReal) i = (r : EReal)) (hw : ∀ i, ∃ r : ℝ, ((m ((c : Thread nD τ).loc main_arg2)) : S10000x1024.Idx → EReal) i = (r : EReal)) :
    rowsOf (posSum m c) (totSum m c) (posCnt m c)
      = Cert.ReferenceIdeal.Read.val_main_v26 (F := Ideal) ((m ((c : Thread nD τ).loc main_arg0)) : S4096x1024.Idx → EReal) ((m ((c : Thread nD τ).loc main_arg1)) : S4096.Idx → BitVec 32) ((m ((c : Thread nD τ).loc main_arg2)) : S10000x1024.Idx → EReal) := by
  funext i
  obtain ⟨p, rfl⟩ : ∃ p : Fin 4096, i = ix1 p := ⟨i 0, eq_ix1 i⟩
  rw [Rows.row_at m c p, Cert.Loss.rows_agree ((m ((c : Thread nD τ).loc main_arg0)) : S4096x1024.Idx → EReal) (gathered ((m ((c : Thread nD τ).loc main_arg1)) : S4096.Idx → BitVec 32) ((m ((c : Thread nD τ).loc main_arg2)) : S10000x1024.Idx → EReal)) ((m ((c : Thread nD τ).loc main_arg1)) : S4096.Idx → BitVec 32) hx (gathered_real ((m ((c : Thread nD τ).loc main_arg1)) : S4096.Idx → BitVec 32) ((m ((c : Thread nD τ).loc main_arg2)) : S10000x1024.Idx → EReal) hw) p]
  exact (Cert.RefRows.row_at ((m ((c : Thread nD τ).loc main_arg0)) : S4096x1024.Idx → EReal) ((m ((c : Thread nD τ).loc main_arg1)) : S4096.Idx → BitVec 32) ((m ((c : Thread nD τ).loc main_arg2)) : S10000x1024.Idx → EReal) p).symm

/-- THE RESULT: the first program's result is the second program's term of the same arguments. -/
theorem result_ref (c : Dev nD) (hx : ∀ i, ∃ r : ℝ, ((m ((c : Thread nD τ).loc main_arg0)) : S4096x1024.Idx → EReal) i = (r : EReal)) (hw : ∀ i, ∃ r : ℝ, ((m ((c : Thread nD τ).loc main_arg2)) : S10000x1024.Idx → EReal) i = (r : EReal)) :
    (Pipeline.afterTail₀ cfgs (dats m) 0 (V0 m) [hostOps1] c main_v24 : S_.Idx → EReal)
      = Cert.ReferenceIdeal.Read.val_main_v28 (F := Ideal) ((m ((c : Thread nD τ).loc main_arg0)) : S4096x1024.Idx → EReal) ((m ((c : Thread nD τ).loc main_arg1)) : S4096.Idx → BitVec 32) ((m ((c : Thread nD τ).loc main_arg2)) : S10000x1024.Idx → EReal) := by
  rw [Rows.result_rows m c, rows_eq m c hx hw]
  rfl

/-- THE RUN, READ: every weakly fair execution ends with the result at the second program's term of the launch
    arguments, the arguments unchanged. -/
theorem run (hx : ∀ c : Dev nD, ∀ i, ∃ r : ℝ, ((m ((c : Thread nD τ).loc main_arg0)) : S4096x1024.Idx → EReal) i = (r : EReal)) (hw : ∀ c : Dev nD, ∀ i, ∃ r : ℝ, ((m ((c : Thread nD τ).loc main_arg2)) : S10000x1024.Idx → EReal) i = (r : EReal)) :
    θ_run defs (onTc (τ := τ) (main (F := Ideal))) ⟨m, fun _ => 0, ρ⟩ (fun r => ∀ c : Dev nD,
      r.2.mem ((c.tc : Thread nD τ).loc main_v24) = Cert.ReferenceIdeal.Read.val_main_v28 (F := Ideal) ((m ((c : Thread nD τ).loc main_arg0)) : S4096x1024.Idx → EReal) ((m ((c : Thread nD τ).loc main_arg1)) : S4096.Idx → BitVec 32) ((m ((c : Thread nD τ).loc main_arg2)) : S10000x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v24 (Pipeline.mem_restRefs_of main_v24 (by decide) (by decide))).trans (result_ref m c (hx c) (hw c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Join

end
-- ==== Proof.lean ====
/-
  The certificate: a loss over 4096 samples with 1024 features and class proxies gathered from a 10000-row table,
  computed by a tiled kernel and by a plain array program, is the same extended real.

  Both programs form, for every pair of samples `(i, j)`, the similarity `sᵢⱼ` (the dot product of input row `i` with
  the table's row at the class word of `j`) and the mark `pᵢⱼ` (1 when the class words of `i` and `j` are equal, else 0).
  The kernel sums `s·p`, `s` and `p` along each row, 256 rows per grid point, and the lines after it form row `i` of the
  loss as `(1 − Σ s·p / Σ p) + (Σ s − Σ s·p) / (4096 − Σ p)`; the array program forms
  `Σ (1 − s)·p / Σ p + Σ s·(1 − p) / Σ (1 − p)`. With finite inputs and table every `sᵢⱼ` is a real number, and `Σⱼ pᵢⱼ ≥ 1`
  because `pᵢᵢ = 1`, so the two rows are equal (Proof/LossAlgebra.lean); both programs then take the same mean.

  The modules: LossAlgebra (the law, the float words, the marks), RefRows (the array program's rows, read off its run),
  Payload (what the kernel body stores, at an index), Blocks (the three columns after the region, from the blocks), HostOps
  (the lines before and after the region), KernelRows (the kernel's rows over its arguments), Finite (the precondition
  gives real entries), Join (the two results are one term). The frames are the generated ones; the kernel's idealization
  rewrote no operation, so there is nothing to preserve.
-/
import proofs.«166522_j26860725469565_1_alg».proof.Defs
import proofs.«166522_j26860725469565_1_alg».proof.Proof.Gen.Kernel
import proofs.«166522_j26860725469565_1_alg».proof.Proof.Gen.Kernel.Skeleton
import proofs.«166522_j26860725469565_1_alg».proof.Proof.Gen.Kernel.Launch
import proofs.«166522_j26860725469565_1_alg».proof.Proof.Gen.Kernel.Points
import proofs.«166522_j26860725469565_1_alg».proof.Proof.Gen.Kernel.Frame
import proofs.«166522_j26860725469565_1_alg».proof.Proof.Gen.KernelIdeal
import proofs.«166522_j26860725469565_1_alg».proof.Proof.Gen.KernelIdeal.Skeleton
import proofs.«166522_j26860725469565_1_alg».proof.Proof.Gen.KernelIdeal.Launch
import proofs.«166522_j26860725469565_1_alg».proof.Proof.Gen.KernelIdeal.Points
import proofs.«166522_j26860725469565_1_alg».proof.Proof.Gen.KernelIdeal.Frame
import proofs.«166522_j26860725469565_1_alg».proof.Proof.Gen.ReferenceIdeal
import proofs.«166522_j26860725469565_1_alg».proof.Proof.Gen.Pre_finite_inputs
import proofs.«166522_j26860725469565_1_alg».proof.Proof.Gen.ReferenceIdeal.Run
import proofs.«166522_j26860725469565_1_alg».proof.Proof.Gen.ReferenceIdeal.Read
import proofs.«166522_j26860725469565_1_alg».proof.Proof.Join
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The array program runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories agreeing on the arguments, of which the first holds finite inputs and table, both programs end with
    the same result: the kernel's run ends at the array program's term of the kernel's arguments (Proof/Join.lean), the
    array program's at that term of its own, and the arguments agree. -/
theorem algebraic : Cert.algebraic_KernelIdeal_ReferenceIdeal := by
  intro m ρ m' ρ' hpre hagree
  have hfin := fun c : Dev Cert.KernelIdeal.nD => Cert.Finite.real_of_pre _ _ _ (hpre c)
  refine ⟨_, Cert.KernelIdeal.Join.run m ρ (fun c => (hfin c).1) (fun c => (hfin c).2), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq _ _ _).trans ?_
  rw [(hagree c).1, (hagree c).2.1, (hagree c).2.2]
  all_goals rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
